-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x128x512 : Shape := ⟨3, ![8, 128, 512]⟩
abbrev S512x512 : Shape := ⟨2, ![512, 512]⟩
abbrev S512 : Shape := ⟨1, ![512]⟩
abbrev S_ : Shape := ⟨0, ![]⟩

class Facts : Prop where
  bcast_S_S8x128x512 : S_.BroadcastsInDim S8x128x512 (![] : Fin 0 → Fin S8x128x512.rank)
  reducesTo_S8x128x512_S_d0_1_2 : S8x128x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn {F : FTy → Type} [FloatOps F] (main_arg0 : FVec F S8x128x512 .f32) (main_arg1 : FVec F S512x512 .f32) (main_arg2 : FVec F S512 .f32) : IVec S_ 1 :=
  let main_v0 : FVec F S8x128x512 .f32 := Host.absf main_arg0
  let main_cst : FVec F S_ .f32 := constant S_ .f32 0x7F800000#32
  let main_v1 : FVec F S8x128x512 .f32 := broadcastInDim S8x128x512 ![] bcast_S_S8x128x512 main_cst
  let main_v2 : IVec S8x128x512 1 := cmpf .olt main_v0 main_v1
  let main_c : IVec S_ 1 := constantI S_ 1 1#1
  let main_v3 : IVec S_ 1 := (fun x v => Host.reduce IntOp.andi x v reducesTo_S8x128x512_S_d0_1_2 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  main_v13
-- ==== Kernel.lean ====
abbrev S8x128x512 : Shape := ⟨3, ![8, 128, 512]⟩
abbrev S512x512 : Shape := ⟨2, ![512, 512]⟩
abbrev S512 : Shape := ⟨1, ![512]⟩
abbrev S1x512 : Shape := ⟨2, ![1, 512]⟩
abbrev S8x128x128x512 : Shape := ⟨4, ![8, 128, 128, 512]⟩
abbrev S1x128x512 : Shape := ⟨3, ![1, 128, 512]⟩
abbrev S1x32x512 : Shape := ⟨3, ![1, 32, 512]⟩
abbrev S1x128x32x512 : Shape := ⟨4, ![1, 128, 32, 512]⟩
abbrev S128x512 : Shape := ⟨2, ![128, 512]⟩
abbrev S32x512 : Shape := ⟨2, ![32, 512]⟩
abbrev S128x1x512 : Shape := ⟨3, ![128, 1, 512]⟩
abbrev S128x32x512 : Shape := ⟨3, ![128, 32, 512]⟩
abbrev S1x1x512 : Shape := ⟨3, ![1, 1, 512]⟩

abbrev nBuf : Space → Nat
  | .hbm => 8
  | .vmem => 8
  | .smem => 0
  | _ => 0

abbrev bufTy : (tb : Table) → Fin (tcTables nBuf tb) → BufTy
  | .hbm, ⟨0, _⟩ => ⟨S8x128x512, .f32⟩
  | .hbm, ⟨1, _⟩ => ⟨S512x512, .f32⟩
  | .hbm, ⟨2, _⟩ => ⟨S512, .f32⟩
  | .hbm, ⟨3, _⟩ => ⟨S512x512, .f32⟩
  | .hbm, ⟨4, _⟩ => ⟨S512x512, .bf16⟩
  | .hbm, ⟨5, _⟩ => ⟨S8x128x512, .bf16⟩
  | .hbm, ⟨6, _⟩ => ⟨S1x512, .f32⟩
  | .hbm, ⟨7, _⟩ => ⟨S8x128x128x512, .f32⟩
  | .local _ .vmem, ⟨0, _⟩ => ⟨S1x128x512, .bf16⟩
  | .local _ .vmem, ⟨1, _⟩ => ⟨S1x128x512, .bf16⟩
  | .local _ .vmem, ⟨2, _⟩ => ⟨S1x32x512, .bf16⟩
  | .local _ .vmem, ⟨3, _⟩ => ⟨S1x32x512, .bf16⟩
  | .local _ .vmem, ⟨4, _⟩ => ⟨S512x512, .bf16⟩
  | .local _ .vmem, ⟨5, _⟩ => ⟨S1x512, .f32⟩
  | .local _ .vmem, ⟨6, _⟩ => ⟨S1x128x32x512, .f32⟩
  | .local _ .vmem, ⟨7, _⟩ => ⟨S1x128x32x512, .f32⟩
  | _, _ => ⟨S8x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x32x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x128x32x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  transposes_S512x512_S512x512_1_0 : S512x512.Transposes [1, 0] S512x512
  bitsLt_bf16_f32 : FTy.bits .bf16 < FTy.bits .f32
  shapeCasts_S512_S1x512 : S512.ShapeCasts S1x512
  inb_S1x128x512_S1x128x512_0_0_0 : ∀ a, (![0, 0, 0] : Fin 3 → Nat) a + S1x128x512.size a ≤ S1x128x512.size a
  h_S1x128x512 : 0 < S1x128x512.numel
  shapeCasts_S1x128x512_S128x512 : S1x128x512.ShapeCasts S128x512
  inb_S1x32x512_S1x32x512_0_0_0 : ∀ a, (![0, 0, 0] : Fin 3 → Nat) a + S1x32x512.size a ≤ S1x32x512.size a
  h_S1x32x512 : 0 < S1x32x512.numel
  shapeCasts_S1x32x512_S32x512 : S1x32x512.ShapeCasts S32x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  shapeCasts_S128x512_S128x1x512 : S128x512.ShapeCasts S128x1x512
  shapeCasts_S32x512_S1x32x512 : S32x512.ShapeCasts S1x32x512
  broadcasts_S128x1x512_S128x32x512 : S128x1x512.Broadcasts S128x32x512
  broadcasts_S1x32x512_S128x32x512 : S1x32x512.Broadcasts S128x32x512
  shapeCasts_S1x512_S1x1x512 : S1x512.ShapeCasts S1x1x512
  broadcasts_S1x1x512_S128x32x512 : S1x1x512.Broadcasts S128x32x512
  inb_S1x128x32x512_S1x128x32x512_0_0_0_0 : ∀ a, (![0, 0, 0, 0] : Fin 4 → Nat) a + S1x128x32x512.size a ≤ S1x128x32x512.size a
  h_S1x128x32x512 : 0 < S1x128x32x512.numel
  shapeCasts_S1x128x32x512_S128x32x512 : S1x128x32x512.ShapeCasts S128x32x512
  shapeCasts_S128x32x512_S1x128x32x512 : S128x32x512.ShapeCasts S1x128x32x512
  dot_S128x512_S512x512_S128x512_1_0_0_1_n_n_wf : DotDims.WF S128x512 S512x512 S128x512 [1] [0] [0] [1] [] []
  dot_S32x512_S512x512_S32x512_1_0_0_1_n_n_wf : DotDims.WF S32x512 S512x512 S32x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x512.size a ≤ S8x128x512.size a
  hwx0_0 : ∀ i : grid0.Coords, EltTy.bits .bf16 = 32 ∨ (Rect.block (s := S8x128x512) S1x128x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x32x512.size a ≤ S8x128x512.size a
  hwx0_1 : ∀ i : grid0.Coords, EltTy.bits .bf16 = 32 ∨ (Rect.block (s := S8x128x512) S1x32x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .bf16 = 32 ∨ (Rect.block (s := S512x512) S512x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128x32x512.size a ≤ S8x128x128x512.size a
  hwx0_4 : ∀ i : grid0.Coords, EltTy.bits .f32 = 32 ∨ (Rect.block (s := S8x128x128x512) S1x128x32x512.size (cc0_transform_4 i) (hinb0_4 i)).WholeWords (EltTy.packing .f32)

variable [Facts₀]

def dot_S128x512_S512x512_S128x512_1_0_0_1_n_n : DotDims S128x512 S512x512 S128x512 where
  lhsContracting := [1]
  rhsContracting := [0]
  lhsNonContracting := [0]
  rhsNonContracting := [1]
  lhsBatch := []
  rhsBatch := []
  wf := dot_S128x512_S512x512_S128x512_1_0_0_1_n_n_wf
def dot_S32x512_S512x512_S32x512_1_0_0_1_n_n : DotDims S32x512 S512x512 S32x512 where
  lhsContracting := [1]
  rhsContracting := [0]
  lhsNonContracting := [0]
  rhsNonContracting := [1]
  lhsBatch := []
  rhsBatch := []
  wf := dot_S32x512_S512x512_S32x512_1_0_0_1_n_n_wf

abbrev win0_0 : Pipeline.Window sig grid0 :=
  Pipeline.Window.ofSpec (Memref.whole main_v2) S1x128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x32x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x128x32x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x128x512 : Shape := ⟨3, ![8, 128, 512]⟩
abbrev S512x512 : Shape := ⟨2, ![512, 512]⟩
abbrev S512 : Shape := ⟨1, ![512]⟩
abbrev S8x1x128x512 : Shape := ⟨4, ![8, 1, 128, 512]⟩
abbrev S8x128x1x512 : Shape := ⟨4, ![8, 128, 1, 512]⟩
abbrev S8x128x128x512 : Shape := ⟨4, ![8, 128, 128, 512]⟩
abbrev S1x1x1x512 : Shape := ⟨4, ![1, 1, 1, 512]⟩

abbrev nBuf : Space → Nat
  | .hbm => 12
  | .vmem => 0
  | .smem => 0
  | _ => 0

abbrev bufTy : (tb : Table) → Fin (tcTables nBuf tb) → BufTy
  | .hbm, ⟨0, _⟩ => ⟨S8x128x512, .f32⟩
  | .hbm, ⟨1, _⟩ => ⟨S512x512, .f32⟩
  | .hbm, ⟨2, _⟩ => ⟨S512, .f32⟩
  | .hbm, ⟨3, _⟩ => ⟨S8x1x128x512, .f32⟩
  | .hbm, ⟨4, _⟩ => ⟨S8x128x1x512, .f32⟩
  | .hbm, ⟨5, _⟩ => ⟨S8x128x128x512, .f32⟩
  | .hbm, ⟨6, _⟩ => ⟨S8x128x128x512, .f32⟩
  | .hbm, ⟨7, _⟩ => ⟨S8x128x128x512, .f32⟩
  | .hbm, ⟨8, _⟩ => ⟨S8x128x128x512, .f32⟩
  | .hbm, ⟨9, _⟩ => ⟨S1x1x1x512, .f32⟩
  | .hbm, ⟨10, _⟩ => ⟨S8x128x128x512, .f32⟩
  | .hbm, ⟨11, _⟩ => ⟨S8x128x128x512, .f32⟩
  | _, _ => ⟨S8x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]

class Facts₀ : Prop where
  bcast_S8x128x512_S8x1x128x512_0_2_3 : S8x128x512.BroadcastsInDim S8x1x128x512 (![0, 2, 3] : Fin 3 → Fin S8x1x128x512.rank)
  bcast_S8x128x512_S8x128x1x512_0_1_3 : S8x128x512.BroadcastsInDim S8x128x1x512 (![0, 1, 3] : Fin 3 → Fin S8x128x1x512.rank)
  bcast_S8x1x128x512_S8x128x128x512_0_1_2_3 : S8x1x128x512.BroadcastsInDim S8x128x128x512 (![0, 1, 2, 3] : Fin 4 → Fin S8x128x128x512.rank)
  bcast_S8x128x1x512_S8x128x128x512_0_1_2_3 : S8x128x1x512.BroadcastsInDim S8x128x128x512 (![0, 1, 2, 3] : Fin 4 → Fin S8x128x128x512.rank)
  bcast_S512_S1x1x1x512_3 : S512.BroadcastsInDim S1x1x1x512 (![3] : Fin 1 → Fin S1x1x1x512.rank)
  bcast_S1x1x1x512_S8x128x128x512_0_1_2_3 : S1x1x1x512.BroadcastsInDim S8x128x128x512 (![0, 1, 2, 3] : Fin 4 → Fin S8x128x128x512.rank)
  dot_S8x128x128x512_S512x512_S8x128x128x512_3_1_012_0_n_n_wf : DotDims.WF S8x128x128x512 S512x512 S8x128x128x512 [3] [1] [0, 1, 2] [0] [] []

variable [Facts₀]

def dot_S8x128x128x512_S512x512_S8x128x128x512_3_1_012_0_n_n : DotDims S8x128x128x512 S512x512 S8x128x128x512 where
  lhsContracting := [3]
  rhsContracting := [1]
  lhsNonContracting := [0, 1, 2]
  rhsNonContracting := [0]
  lhsBatch := []
  rhsBatch := []
  wf := dot_S8x128x128x512_S512x512_S8x128x128x512_3_1_012_0_n_n_wf

class Facts : Prop extends Facts₀ where

variable [Facts]
-- ==== Proof.LibSharedFrame.lean ====
/-
  The frame run of a one-region pipelined kernel whose input windows may SHARE an array.

  A kernel handed one array through several input windows cannot hold that array at the full share once per
  window: the array's full share is dealt among the windows that read it, and what is asked of the certificate is
  how the distinct buffers behind the windows' arrays, each whole at the region-entry contents, make the proof
  data's arrays at entry (`hsplit`).  Everything else is as for distinct arrays: the kernel uses no semaphore of
  its own, its invariant is the scoped buffers that are no staging buffer (entered from them and returned to them),
  every unscoped buffer that is no window's array bypasses the region, and the final state has every window's
  array at what the write-backs computed from the proof data and every bypassing buffer at its entry contents.
  The generator register is not used by such a body and is let go.
-/
import Idealize.ShloMosaic.Lib.Pipeline.Frame

noncomputable section

namespace Cert.Lib.SharedFrame

open Idealize.ShloMosaic Idealize.ShloMosaic.Pipeline
open Idealize.SL
open Idealize.SL.BI (sProp bigSep bigSep_map)
open scoped Idealize.SL.BI
open Idealize.SL.BI.BIBase Idealize.SL.BI.Laws Idealize.SL.Sem Idealize.SL.ProofMode
open Idealize.SL.RA
open Idealize.ShloMosaic.TcCoe Idealize.ShloMosaic.Rounds

variable {nD : Nat} {τ : Topo} {sig : RefSig} {Val : EltTy → Type}
variable {Λ₀ : Idealize.SL.Sem.Labels} {P : Type} [Fintype P] [DecidableEq P] [∀ e, Nonempty (Val e)]

local notation "𝕄" => MT nD τ sig Unit Val ℕ (UR sig nD τ) ℕ

variable (cfgs : P → Cfg sig Λ₀)
  (dats : (p : P) → (c : Dev nD) → Dat τ Val Unit ℕ (UR sig nD τ) ℕ (cfgs p) c) (p : P)
  (defs₀ : Defs nD τ sig Val Λ₀) (𝒱₀ : Variants)

/-- The frame run for windows that may share arrays: from any memory with zero counters every weakly fair
    execution of @main terminates, and every final state has each window's array at `arrAt w N` and each
    unscoped buffer that is no window's array at its region-entry contents `V`. -/
theorem θ_run_frame_shared
    (hinj : Function.Injective (cellOf (nD := nD) (τ := τ) cfgs)) (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, arrBufs (cfgs p).spec c (V c) ⊢ (dats p c).arrays ((dats p c).arrAt · 0))
    (hin : ∀ c, scopedRest (cfgs p).spec c ⊢ (dats p c).Φ 0)
    (hout : ∀ c, (dats p c).Φ (Fin.last (cfgs p).N) ⊢ scopedRest (cfgs p).spec c) :
    θ_run (Pipeline.defs (fun q => Cfg.toPCfg (Val := Val) (cfgs q)) defs₀) (onTc main) (s₀ m g) (FramePost cfgs dats p V) := by
  classical
  exact θ_run_region_noSem_shared cfgs dats () hinj p hw emb₁ defs₀ 𝒱₀ m g main hbody hne harr hstage howed
    (u₀ := initOf (cells cfgs hinj) (launchToks cfgs hinj))
    (hu₀ := (show (ownU _ : sProp 𝕄) ⊢ BI.own (emb₁ (initOf (cells cfgs hinj) (launchToks cfgs hinj))) from .rfl))
    (V := V) (hmain := hmain) (hsplit := hsplit)
    (X := fun _ => iprop(emp)) (Y := fun _ => iprop(emp))
    (Z := fun c => unscopedRest (Ix := Unit) (Name := ℕ) (U := UR sig nD τ) (Lvl := ℕ) (cfgs p).spec c (V c))
    (hX := fun c => by
      iintro H
      isplitr; · iempintro
      iexact H)
    (hin := fun c => (show _ ⊢ scopedRest (cfgs p).spec c from by iintro ⟨-, H⟩; iexact H).trans (hin c))
    (hout := fun c => (hout c).trans (by
      iintro H
      isplitr; · iempintro
      iexact H))
    (QY := fun c s => ∀ b ∈ restRefs sig (cfgs p).spec, s.mem ((c.tc : Thread nD τ).loc b) = V c b)
    (hY := fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (hQ := fun s h c => ⟨(h c).1, (h c).2⟩)

end Cert.Lib.SharedFrame

end
-- ==== Proof.KernelFrame.lean ====
/-
  The run of the pairwise-linear kernel, read at any float instance.

  The kernel is one pipelined region over a grid of 8 × 4 points.  At a point (b, jt) the pipeline hands the body
  five staging buffers: rows 0..127 of batch b of the converted features (window 0), rows 32·jt..32·jt+31 of the
  same batch of the SAME array (window 1), the whole transposed weight matrix (window 2), the bias as a row
  (window 3), and the output block (b, all i, rows 32·jt..32·jt+31, all features) (window 4).  The body loads the
  four inputs whole, computes one value from them and stores it over the whole output block; it keeps nothing
  between points and leaves its inputs in place.

  Windows 0 and 1 read one array.  Both only read it, so the array's full share is dealt between them, half
  each; the other arrays are held whole.  With that split the shared-array frame run applies: the region ends
  with the output array at what the write-backs of the 32 points left, and every other unscoped buffer — the
  three argument arrays among them, which no host operation before the region writes — as it was.
-/
import proofs.«106311_j86199993631321_2_alg».proof.Proof.Gen.Kernel.Launch
import proofs.«106311_j86199993631321_2_alg».proof.Proof.Gen.Kernel.Skeleton
import proofs.«106311_j86199993631321_2_alg».proof.Proof.Gen.Kernel.Points
import proofs.«106311_j86199993631321_2_alg».proof.Proof.LibSharedFrame
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Up to the region -/

/-- The TensorCore buffers of core `c` when the region is entered: the launch contents after the four host
    operations (the weight's transpose, the two conversions, the bias reshaped to a row). -/
def V (c : Dev nD) (b : Ref sig .tc) : Buf (Elt F) ((c : Thread nD τ).loc b) := StableHlo.after hostOps0 (fun b => m (c, b)) b

theorem V_eq (c : Dev nD) (b : Ref sig .tc) : V m c b = StableHlo.after hostOps0 (fun b => m (c, b)) b := rfl

theorem hostOps0_fresh : (hostOps0 : List (HloOp τ sig (Elt F))).Forall fun op => op.fresh = ∅ := by
  simp only [List.Forall]; repeat' constructor

/-- @main is the four host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- None of the four host operations writes an argument array. -/
theorem V_main_arg0 (c : Dev nD) : V m c main_arg0 = m ((c : Thread nD τ).loc main_arg0) :=
  (V_eq m c main_arg0).trans <| StableHlo.after_of_forall_not_mem (b := Proc.devRef .tc main_arg0) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  (V_eq m c main_arg1).trans <| StableHlo.after_of_forall_not_mem (b := Proc.devRef .tc main_arg1) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  (V_eq m c main_arg2).trans <| StableHlo.after_of_forall_not_mem (b := Proc.devRef .tc main_arg2) _ _ (List.forall_iff_forall_mem.mp (by
    simp only [hostOps0, List.Forall, StableHlo.unary_writes, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (unfetched, the
    block index has not moved and the body left the block in place): window by window. -/
theorem before_in_0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in_1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in_2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in_3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body -/

abbrev rx : Rect S1x128x512 := Rect.unit (s := S1x128x512) ![0, 0, 0] S1x128x512.size inb_S1x128x512_S1x128x512_0_0_0
abbrev ry : Rect S1x32x512 := Rect.unit (s := S1x32x512) ![0, 0, 0] S1x32x512.size inb_S1x32x512_S1x32x512_0_0_0
abbrev rw : Rect S512x512 := Rect.unit (s := S512x512) ![0, 0] S512x512.size inb_S512x512_S512x512_0_0
abbrev rb : Rect S1x512 := Rect.unit (s := S1x512) ![0, 0] S1x512.size inb_S1x512_S1x512_0_0
abbrev ro : Rect S1x128x32x512 := Rect.unit (s := S1x128x32x512) ![0, 0, 0, 0] S1x128x32x512.size inb_S1x128x32x512_S1x128x32x512_0_0_0_0

/-- What the body leaves in the output block, from the four input blocks: its one store, over the whole block. -/
def outBlock (x0 : Vec F S1x128x512 .bf16) (x1 : Vec F S1x32x512 .bf16) (x2 : Vec F S512x512 .bf16) (x3 : Vec F S1x512 .f32) :
    Vec F S1x128x32x512 .f32 :=
  View.canon [⟨ro, k0_pay1 (View.ld x0 rx) (View.ld x1 ry) (View.ld x2 rw) (View.ld x3 rb)⟩]

/-- The one store covers the block. -/
theorem outBlock_cover (p0 : Vec F S1x128x32x512 .f32) (y : S1x128x32x512.Idx) :
    ∃ pc ∈ ([⟨ro, p0⟩] : List (View.Piece (Elt F) S1x128x32x512 .f32)), y ∈ pc.1.set :=
  View.cover_of_tiled [⟨ro, p0⟩] S1x128x32x512.size (by rfl) y

set_option maxHeartbeats 1000000 in
/-- The body on whole staging memrefs, the four inputs at contents `x0 … x3` and the output at anything, runs to
    the inputs as they were and the output at `outBlock` of them. -/
theorem sound_kernel (c : Dev nD) (E : Set ℕ) (i : grid0.Coords)
    (arg2 : Memref sig .tc .vmem S1x128x512 .bf16) (harg2 : arg2.IsWhole) (arg3 : Memref sig .tc .vmem S1x32x512 .bf16) (harg3 : arg3.IsWhole)
    (arg4 : Memref sig .tc .vmem S512x512 .bf16) (harg4 : arg4.IsWhole) (arg5 : Memref sig .tc .vmem S1x512 .f32) (harg5 : arg5.IsWhole)
    (arg6 : Memref sig .tc .vmem S1x128x32x512 .f32) (harg6 : arg6.IsWhole)
    (x0 : Vec F S1x128x512 .bf16) (x1 : Vec F S1x32x512 .bf16) (x2 : Vec F S512x512 .bf16) (x3 : Vec F S1x512 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (outBlock x0 x1 x2 x3)) -∗ K ⟨⟩))
      ⊢ wp frame (wpE (defs₀ (F := F)) Variants.none c none) E (cc0__fused_kernel i arg2 harg2 arg3 harg3 arg4 harg4 arg5 harg5 arg6 harg6) K := by
  simp only [cc0__fused_kernel_eq_skeleton]; unfold cc0__fused_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (outBlock_cover _)

/-! ## The proof data -/

/-- The proof data on core `c`: the arrays as the region finds them; after the body each input's buffer at its
    block and the output's at `outBlock` of the input blocks; the invariant the scoped buffers that are no staging
    buffer; nothing owed; the array the first two windows share held by halves, the others whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBlock (iblk m c 0 t) (iblk m c 1 t) (iblk m c 2 t) (iblk m c 3 t)
  Φ _ := Pipeline.scopedRest spec0 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) :
    (dats m 0 c).after 4 t = outBlock (iblk m c 0 t) (iblk m c 1 t) (iblk m c 2 t) (iblk m c 3 t) := by dsimp only [dats]

theorem before_0 (c : Dev nD) (t : Fin cfg0.N) (d) : (dats m 0 c).before 0 t d = iblk m c 0 t :=
  before_in_0 m (dats m 0 c) (A_eq m c 0) (after_0 m c) t d
theorem before_1 (c : Dev nD) (t : Fin cfg0.N) (d) : (dats m 0 c).before 1 t d = iblk m c 1 t :=
  before_in_1 m (dats m 0 c) (A_eq m c 1) (after_1 m c) t d
theorem before_2 (c : Dev nD) (t : Fin cfg0.N) (d) : (dats m 0 c).before 2 t d = iblk m c 2 t :=
  before_in_2 m (dats m 0 c) (A_eq m c 2) (after_2 m c) t d
theorem before_3 (c : Dev nD) (t : Fin cfg0.N) (d) : (dats m 0 c).before 3 t d = iblk m c 3 t :=
  before_in_3 m (dats m 0 c) (A_eq m c 3) (after_3 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' buffers hold their blocks, so `sound_kernel` applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.KernelRun.lean ====
/-
  The run of the pairwise-linear kernel: how the array the first two windows share is dealt between them at the
  region's entry, the shared-array frame run, and the frame (the three argument arrays end as launched).
-/
import proofs.«106311_j86199993631321_2_alg».proof.Proof.KernelFrame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays at entry -/

/-- The distinct buffers behind the windows' arrays are four: the converted features (read by windows 0 and 1),
    the converted transposed weights, the bias row and the result. -/
theorem arrBufs_eq (c : Dev nD) :
    (Pipeline.arrBufs spec0 c (V m c) : sProp 𝕄)
      = iprop((((c : Thread nD τ).loc main_v2) ↦{fullShare} V m c main_v2) ∗ (((c : Thread nD τ).loc main_v1) ↦{fullShare} V m c main_v1)
          ∗ (((c : Thread nD τ).loc main_v3) ↦{fullShare} V m c main_v3) ∗ (((c : Thread nD τ).loc main_v4) ↦{fullShare} V m c main_v4)) := by
  unfold Pipeline.arrBufs
  exact bigSep_eq_bigSepL_of_eq [main_v2, main_v1, main_v3, main_v4] (by decide) (by decide) _

/-- The proof data's arrays, window by window, each behind its buffer's location and whole. -/
theorem arrays_eq_shares (c : Dev nD) (Fn : (w : Fin cfg0.W) → Buf (Elt F) ((cfg0.win w).arr.view.loc (c.tc : Thread nD τ))) :
    ((dats m 0 c).arrays Fn : sProp 𝕄)
      = bigSep Finset.univ fun w : Fin 5 => (((c.tc : Thread nD τ).loc (Pipeline.arrRef spec0 w)) ↦{(dats m 0 c).share w} Fn w : sProp 𝕄) := by
  unfold Dat.arrays
  exact bigSep_congr fun w _ => by rw [(arr_whole0 w).set_eq_univ]

/-- The four distinct buffers behind the windows' arrays, each whole at its region-entry contents, make the proof
    data's arrays at entry: the array windows 0 and 1 both read is split into its two halves, one per window. -/
theorem arrays_entry (c : Dev nD) :
    (Pipeline.arrBufs spec0 c (V m c) : sProp 𝕄) ⊢ (dats m 0 c).arrays ((dats m 0 c).arrAt · 0) := by
  have harr : ∀ w : Fin 5, (dats m 0 c).arrAt w 0 = V m c (Pipeline.arrRef spec0 w) := fun w =>
    (show (dats m 0 c).arrAt w 0 = (dats m 0 c).A w from rfl).trans (A_eq m c w)
  have hs0 : (dats m 0 c).share 0 = fullShare.left := rfl
  have hs1 : (dats m 0 c).share 1 = fullShare.right := rfl
  have hs2 : (dats m 0 c).share 2 = fullShare := rfl
  have hs3 : (dats m 0 c).share 3 = fullShare := rfl
  have hs4 : (dats m 0 c).share 4 = fullShare := rfl
  rw [arrBufs_eq, arrays_eq_shares, bigSep_W0]
  simp only [harr, hs0, hs1, hs2, hs3, hs4]
  generalize V m c = V'
  iintro ⟨H2, H1, H3, H4⟩
  ihave H2 := (pointsTo_share (PosShare.mem_left_op_right fullShare)).1 $$ H2
  icases H2 with ⟨Ha, Hb⟩
  isplitl [Ha]; · iexact Ha
  isplitl [Hb]; · iexact Hb
  isplitl [H1]; · iexact H1
  isplitl [H3]; · iexact H3
  iexact H4

/-! ## The run -/

set_option backward.isDefEq.respectTransparency.types false in
/-- From any memory with zero counters every weakly fair execution of @main terminates, the output array at what
    the 32 write-backs left and every other unscoped buffer as the region found it. -/
theorem run_main : θ_run defs (onTc (τ := τ) (main (F := F))) (s₀ m ρ) (Pipeline.FramePost cfgs (dats m) 0 (V m)) :=
  Cert.Lib.SharedFrame.θ_run_frame_shared cfgs (dats m) (0 : Fin 1) defs₀ Variants.none cellOf_inj winFacts₀0 block_pos0 arr_whole0 stage_whole0
    m ρ main (hbody := fun c => (body_obligation m c).loose) (howed := fun _ _ => rfl) (V := V m) (hmain := hmain m Variants.none)
    (hsplit := arrays_entry m) (hin := fun _ => .rfl) (hout := fun _ => .rfl)

/-- The frame: the three argument arrays end as they were launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of _ rfl (by decide))).trans (V_main_arg0 m c),
     ((h c).2 main_arg1 (Pipeline.mem_restRefs_of _ rfl (by decide))).trans (V_main_arg1 m c),
     ((h c).2 main_arg2 (Pipeline.mem_restRefs_of _ rfl (by decide))).trans (V_main_arg2 m c)⟩) (run_main m ρ)

end Cert.Kernel.Hand

end
-- ==== Proof.KernelIdealFrame.lean ====
/-
  The run of the pairwise-linear kernel, read at any float instance.

  The kernel is one pipelined region over a grid of 8 × 4 points.  At a point (b, jt) the pipeline hands the body
  five staging buffers: rows 0..127 of batch b of the converted features (window 0), rows 32·jt..32·jt+31 of the
  same batch of the SAME array (window 1), the whole transposed weight matrix (window 2), the bias as a row
  (window 3), and the output block (b, all i, rows 32·jt..32·jt+31, all features) (window 4).  The body loads the
  four inputs whole, computes one value from them and stores it over the whole output block; it keeps nothing
  between points and leaves its inputs in place.

  Windows 0 and 1 read one array.  Both only read it, so the array's full share is dealt between them, half
  each; the other arrays are held whole.  With that split the shared-array frame run applies: the region ends
  with the output array at what the write-backs of the 32 points left, and every other unscoped buffer — the
  three argument arrays among them, which no host operation before the region writes — as it was.
-/
import proofs.«106311_j86199993631321_2_alg».proof.Proof.Gen.KernelIdeal.Launch
import proofs.«106311_j86199993631321_2_alg».proof.Proof.Gen.KernelIdeal.Skeleton
import proofs.«106311_j86199993631321_2_alg».proof.Proof.Gen.KernelIdeal.Points
import proofs.«106311_j86199993631321_2_alg».proof.Proof.LibSharedFrame
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Up to the region -/

/-- The TensorCore buffers of core `c` when the region is entered: the launch contents after the four host
    operations (the weight's transpose, the two conversions, the bias reshaped to a row). -/
def V (c : Dev nD) (b : Ref sig .tc) : Buf (Elt F) ((c : Thread nD τ).loc b) := StableHlo.after hostOps0 (fun b => m (c, b)) b

theorem V_eq (c : Dev nD) (b : Ref sig .tc) : V m c b = StableHlo.after hostOps0 (fun b => m (c, b)) b := rfl

theorem hostOps0_fresh : (hostOps0 : List (HloOp τ sig (Elt F))).Forall fun op => op.fresh = ∅ := by
  simp only [List.Forall]; repeat' constructor

/-- @main is the four host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- None of the four host operations writes an argument array. -/
theorem V_main_arg0 (c : Dev nD) : V m c main_arg0 = m ((c : Thread nD τ).loc main_arg0) :=
  (V_eq m c main_arg0).trans <| StableHlo.after_of_forall_not_mem (b := Proc.devRef .tc main_arg0) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  (V_eq m c main_arg1).trans <| StableHlo.after_of_forall_not_mem (b := Proc.devRef .tc main_arg1) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  (V_eq m c main_arg2).trans <| StableHlo.after_of_forall_not_mem (b := Proc.devRef .tc main_arg2) _ _ (List.forall_iff_forall_mem.mp (by
    simp only [hostOps0, List.Forall, StableHlo.unary_writes, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (unfetched, the
    block index has not moved and the body left the block in place): window by window. -/
theorem before_in_0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in_1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in_2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in_3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body -/

abbrev rx : Rect S1x128x512 := Rect.unit (s := S1x128x512) ![0, 0, 0] S1x128x512.size inb_S1x128x512_S1x128x512_0_0_0
abbrev ry : Rect S1x32x512 := Rect.unit (s := S1x32x512) ![0, 0, 0] S1x32x512.size inb_S1x32x512_S1x32x512_0_0_0
abbrev rw : Rect S512x512 := Rect.unit (s := S512x512) ![0, 0] S512x512.size inb_S512x512_S512x512_0_0
abbrev rb : Rect S1x512 := Rect.unit (s := S1x512) ![0, 0] S1x512.size inb_S1x512_S1x512_0_0
abbrev ro : Rect S1x128x32x512 := Rect.unit (s := S1x128x32x512) ![0, 0, 0, 0] S1x128x32x512.size inb_S1x128x32x512_S1x128x32x512_0_0_0_0

/-- What the body leaves in the output block, from the four input blocks: its one store, over the whole block. -/
def outBlock (x0 : Vec F S1x128x512 .bf16) (x1 : Vec F S1x32x512 .bf16) (x2 : Vec F S512x512 .bf16) (x3 : Vec F S1x512 .f32) :
    Vec F S1x128x32x512 .f32 :=
  View.canon [⟨ro, k0_pay1 (View.ld x0 rx) (View.ld x1 ry) (View.ld x2 rw) (View.ld x3 rb)⟩]

/-- The one store covers the block. -/
theorem outBlock_cover (p0 : Vec F S1x128x32x512 .f32) (y : S1x128x32x512.Idx) :
    ∃ pc ∈ ([⟨ro, p0⟩] : List (View.Piece (Elt F) S1x128x32x512 .f32)), y ∈ pc.1.set :=
  View.cover_of_tiled [⟨ro, p0⟩] S1x128x32x512.size (by rfl) y

set_option maxHeartbeats 1000000 in
/-- The body on whole staging memrefs, the four inputs at contents `x0 … x3` and the output at anything, runs to
    the inputs as they were and the output at `outBlock` of them. -/
theorem sound_kernel (c : Dev nD) (E : Set ℕ) (i : grid0.Coords)
    (arg2 : Memref sig .tc .vmem S1x128x512 .bf16) (harg2 : arg2.IsWhole) (arg3 : Memref sig .tc .vmem S1x32x512 .bf16) (harg3 : arg3.IsWhole)
    (arg4 : Memref sig .tc .vmem S512x512 .bf16) (harg4 : arg4.IsWhole) (arg5 : Memref sig .tc .vmem S1x512 .f32) (harg5 : arg5.IsWhole)
    (arg6 : Memref sig .tc .vmem S1x128x32x512 .f32) (harg6 : arg6.IsWhole)
    (x0 : Vec F S1x128x512 .bf16) (x1 : Vec F S1x32x512 .bf16) (x2 : Vec F S512x512 .bf16) (x3 : Vec F S1x512 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (outBlock x0 x1 x2 x3)) -∗ K ⟨⟩))
      ⊢ wp frame (wpE (defs₀ (F := F)) Variants.none c none) E (cc0__fused_kernel i arg2 harg2 arg3 harg3 arg4 harg4 arg5 harg5 arg6 harg6) K := by
  simp only [cc0__fused_kernel_eq_skeleton]; unfold cc0__fused_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (outBlock_cover _)

/-! ## The proof data -/

/-- The proof data on core `c`: the arrays as the region finds them; after the body each input's buffer at its
    block and the output's at `outBlock` of the input blocks; the invariant the scoped buffers that are no staging
    buffer; nothing owed; the array the first two windows share held by halves, the others whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBlock (iblk m c 0 t) (iblk m c 1 t) (iblk m c 2 t) (iblk m c 3 t)
  Φ _ := Pipeline.scopedRest spec0 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) :
    (dats m 0 c).after 4 t = outBlock (iblk m c 0 t) (iblk m c 1 t) (iblk m c 2 t) (iblk m c 3 t) := by dsimp only [dats]

theorem before_0 (c : Dev nD) (t : Fin cfg0.N) (d) : (dats m 0 c).before 0 t d = iblk m c 0 t :=
  before_in_0 m (dats m 0 c) (A_eq m c 0) (after_0 m c) t d
theorem before_1 (c : Dev nD) (t : Fin cfg0.N) (d) : (dats m 0 c).before 1 t d = iblk m c 1 t :=
  before_in_1 m (dats m 0 c) (A_eq m c 1) (after_1 m c) t d
theorem before_2 (c : Dev nD) (t : Fin cfg0.N) (d) : (dats m 0 c).before 2 t d = iblk m c 2 t :=
  before_in_2 m (dats m 0 c) (A_eq m c 2) (after_2 m c) t d
theorem before_3 (c : Dev nD) (t : Fin cfg0.N) (d) : (dats m 0 c).before 3 t d = iblk m c 3 t :=
  before_in_3 m (dats m 0 c) (A_eq m c 3) (after_3 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' buffers hold their blocks, so `sound_kernel` applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KernelIdealRun.lean ====
/-
  The run of the pairwise-linear kernel: how the array the first two windows share is dealt between them at the
  region's entry, the shared-array frame run, and the frame (the three argument arrays end as launched).
-/
import proofs.«106311_j86199993631321_2_alg».proof.Proof.KernelIdealFrame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays at entry -/

/-- The distinct buffers behind the windows' arrays are four: the converted features (read by windows 0 and 1),
    the converted transposed weights, the bias row and the result. -/
theorem arrBufs_eq (c : Dev nD) :
    (Pipeline.arrBufs spec0 c (V m c) : sProp 𝕄)
      = iprop((((c : Thread nD τ).loc main_v2) ↦{fullShare} V m c main_v2) ∗ (((c : Thread nD τ).loc main_v1) ↦{fullShare} V m c main_v1)
          ∗ (((c : Thread nD τ).loc main_v3) ↦{fullShare} V m c main_v3) ∗ (((c : Thread nD τ).loc main_v4) ↦{fullShare} V m c main_v4)) := by
  unfold Pipeline.arrBufs
  exact bigSep_eq_bigSepL_of_eq [main_v2, main_v1, main_v3, main_v4] (by decide) (by decide) _

/-- The proof data's arrays, window by window, each behind its buffer's location and whole. -/
theorem arrays_eq_shares (c : Dev nD) (Fn : (w : Fin cfg0.W) → Buf (Elt F) ((cfg0.win w).arr.view.loc (c.tc : Thread nD τ))) :
    ((dats m 0 c).arrays Fn : sProp 𝕄)
      = bigSep Finset.univ fun w : Fin 5 => (((c.tc : Thread nD τ).loc (Pipeline.arrRef spec0 w)) ↦{(dats m 0 c).share w} Fn w : sProp 𝕄) := by
  unfold Dat.arrays
  exact bigSep_congr fun w _ => by rw [(arr_whole0 w).set_eq_univ]

/-- The four distinct buffers behind the windows' arrays, each whole at its region-entry contents, make the proof
    data's arrays at entry: the array windows 0 and 1 both read is split into its two halves, one per window. -/
theorem arrays_entry (c : Dev nD) :
    (Pipeline.arrBufs spec0 c (V m c) : sProp 𝕄) ⊢ (dats m 0 c).arrays ((dats m 0 c).arrAt · 0) := by
  have harr : ∀ w : Fin 5, (dats m 0 c).arrAt w 0 = V m c (Pipeline.arrRef spec0 w) := fun w =>
    (show (dats m 0 c).arrAt w 0 = (dats m 0 c).A w from rfl).trans (A_eq m c w)
  have hs0 : (dats m 0 c).share 0 = fullShare.left := rfl
  have hs1 : (dats m 0 c).share 1 = fullShare.right := rfl
  have hs2 : (dats m 0 c).share 2 = fullShare := rfl
  have hs3 : (dats m 0 c).share 3 = fullShare := rfl
  have hs4 : (dats m 0 c).share 4 = fullShare := rfl
  rw [arrBufs_eq, arrays_eq_shares, bigSep_W0]
  simp only [harr, hs0, hs1, hs2, hs3, hs4]
  generalize V m c = V'
  iintro ⟨H2, H1, H3, H4⟩
  ihave H2 := (pointsTo_share (PosShare.mem_left_op_right fullShare)).1 $$ H2
  icases H2 with ⟨Ha, Hb⟩
  isplitl [Ha]; · iexact Ha
  isplitl [Hb]; · iexact Hb
  isplitl [H1]; · iexact H1
  isplitl [H3]; · iexact H3
  iexact H4

/-! ## The run -/

set_option backward.isDefEq.respectTransparency.types false in
/-- From any memory with zero counters every weakly fair execution of @main terminates, the output array at what
    the 32 write-backs left and every other unscoped buffer as the region found it. -/
theorem run_main : θ_run defs (onTc (τ := τ) (main (F := F))) (s₀ m ρ) (Pipeline.FramePost cfgs (dats m) 0 (V m)) :=
  Cert.Lib.SharedFrame.θ_run_frame_shared cfgs (dats m) (0 : Fin 1) defs₀ Variants.none cellOf_inj winFacts₀0 block_pos0 arr_whole0 stage_whole0
    m ρ main (hbody := fun c => (body_obligation m c).loose) (howed := fun _ _ => rfl) (V := V m) (hmain := hmain m Variants.none)
    (hsplit := arrays_entry m) (hin := fun _ => .rfl) (hout := fun _ => .rfl)

/-- The frame: the three argument arrays end as they were launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of _ rfl (by decide))).trans (V_main_arg0 m c),
     ((h c).2 main_arg1 (Pipeline.mem_restRefs_of _ rfl (by decide))).trans (V_main_arg1 m c),
     ((h c).2 main_arg2 (Pipeline.mem_restRefs_of _ rfl (by decide))).trans (V_main_arg2 m c)⟩) (run_main m ρ)

end Cert.KernelIdeal.Hand

end
-- ==== Proof.LibDot.lean ====
/-
  A plain matrix product read at an entry.  For dimension numbers that contract the left operand's axis 1 with the right
  operand's axis 0 and have no batch axis, both the matrix unit's product into a zero accumulator and the host's
  dot_general are, at the ideal reading, the textbook sum Σ_i lhs (p, i) · rhs (i, q): the contraction index is its one
  coordinate, and the operand indices at (p, q) and i are (p, i) and (i, q).
-/
import Idealize.ShloMosaic.PureOps.Ideal.Laws
import Idealize.ShloMosaic.Lib.ValueIdx

noncomputable section

namespace Cert.LibDot

open Idealize.ShloMosaic Idealize.ShloMosaic.ValueIdx
open scoped BigOperators

variable {a k b : ℕ} (D : DotDims ⟨2, ![a, k]⟩ ⟨2, ![k, b]⟩ ⟨2, ![a, b]⟩) (hr : D.contr.rank = 1)
  (hs : D.contr.size ⟨0, by omega⟩ = k)
  (hl0 : ∀ j q, (D.lhsIdx j q 0).val = (j 0).val) (hl1 : ∀ j q, (D.lhsIdx j q 1).val = (q ⟨0, by omega⟩).val)
  (hr0 : ∀ j q, (D.rhsIdx j q 0).val = (q ⟨0, by omega⟩).val) (hr1 : ∀ j q, (D.rhsIdx j q 1).val = (j 1).val)

include hr hs hl0 hl1 hr0 hr1

/-- The sum over the contraction index is the sum over its one coordinate, the operands read at (p, i) and (i, q). -/
theorem sum_plain (lhs : (⟨2, ![a, k]⟩ : Shape).Idx → EReal) (rhs : (⟨2, ![k, b]⟩ : Shape).Idx → EReal) (p : Fin a) (q : Fin b) :
    (∑ c : D.contr.Idx, lhs (D.lhsIdx (ix2 p q) c) * rhs (D.rhsIdx (ix2 p q) c)) = ∑ i : Fin k, lhs (ix2 p i) * rhs (ix2 i q) := by
  rw [← Equiv.sum_comp (contrEquiv1 D k hr hs).symm]
  refine Finset.sum_congr rfl fun i _ => ?_
  have hk := contrEquiv1_symm_val D k hr hs i
  have el : D.lhsIdx (ix2 p q) ((contrEquiv1 D k hr hs).symm i) = ix2 p i := funext fun ax => Fin.ext (by
    match ax with
    | ⟨0, _⟩ => exact hl0 _ _
    | ⟨1, _⟩ => exact (hl1 _ _).trans hk)
  have er : D.rhsIdx (ix2 p q) ((contrEquiv1 D k hr hs).symm i) = ix2 i q := funext fun ax => Fin.ext (by
    match ax with
    | ⟨0, _⟩ => exact (hr0 _ _).trans hk
    | ⟨1, _⟩ => exact hr1 _ _)
  rw [el, er]

/-- The matrix unit's product into a zero accumulator, at entry (p, q). -/
theorem matmul_zero_apply {φ₁ φ₂ : FTy} (prec : Option ContractPrecision) (lhs : FVec Ideal ⟨2, ![a, k]⟩ φ₁)
    (rhs : FVec Ideal ⟨2, ![k, b]⟩ φ₂) (p : Fin a) (q : Fin b) :
    FloatOps.matmul D prec lhs rhs (constant ⟨2, ![a, b]⟩ .f32 0x00000000#32) (ix2 p q) = ∑ i : Fin k, lhs (ix2 p i) * rhs (ix2 i q) :=
  (Ideal.matmul_constant_zero_apply D prec lhs rhs (ix2 p q)).trans (sum_plain D hr hs hl0 hl1 hr0 hr1 lhs rhs p q)

/-- The host's dot_general, at entry (p, q). -/
theorem dotGeneral_apply {φ₁ φ₂ : FTy} (prec : Option ContractPrecision) (sched : HostSchedule) (lhs : FVec Ideal ⟨2, ![a, k]⟩ φ₁)
    (rhs : FVec Ideal ⟨2, ![k, b]⟩ φ₂) (p : Fin a) (q : Fin b) :
    FloatOps.dotGeneral D prec sched lhs rhs (ix2 p q) = ∑ i : Fin k, lhs (ix2 p i) * rhs (ix2 i q) :=
  (Ideal.dotGeneral_apply D prec sched lhs rhs (ix2 p q)).trans (sum_plain D hr hs hl0 hl1 hr0 hr1 lhs rhs p q)

end Cert.LibDot

end
-- ==== Proof.LibOuterLayout.lean ====
/-
  The layout operations of an outer sum read at an index given by coordinates: a matrix `[a, b]` given a middle unit
  axis, `[a, 1, b]`, and the three broadcasts to `[a, c, b]` that an outer sum `u[i, :] + v[k, :] + w[:]` is built
  from — of `[a, 1, b]` (constant along the middle axis), of `[1, c, b]` (constant along the leading axis) and of
  `[1, 1, b]` (one row over everything).
-/
import Idealize.ShloMosaic.Lib.ValueLayout

namespace Cert.LibOuterLayout

open Idealize.ShloMosaic Idealize.ShloMosaic.ValueIdx

variable {α : Type}

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, 1, b]` array broadcast to `[a, c, b]` reads, at `(i, k, j)`, the operand at `(i, 0, j)`. -/
theorem broadcastTo_a1b_acb_apply {a c b : ℕ} (x : (⟨3, ![a, 1, b]⟩ : Shape).Idx → α)
    (h : (⟨3, ![a, 1, b]⟩ : Shape).Broadcasts ⟨3, ![a, c, b]⟩) (i : Fin a) (k : Fin c) (j : Fin b) :
    broadcastTo ⟨3, ![a, c, b]⟩ x h (ix3 i k j) = x (ix3 i (0 : Fin 1) j) := by
  refine broadcastTo_apply x h (ix3 i k j) (ix3 i (0 : Fin 1) j) fun ax => ?_
  match ax with
  | ⟨0, _⟩ =>
    show i.val = if a = 1 then 0 else i.val
    split
    · have := i.isLt; omega
    · rfl
  | ⟨1, _⟩ => rfl
  | ⟨2, _⟩ =>
    show j.val = if b = 1 then 0 else j.val
    split
    · have := j.isLt; omega
    · rfl

/-- A `[1, c, b]` array broadcast to `[a, c, b]` reads, at `(i, k, j)`, the operand at `(0, k, j)`. -/
theorem broadcastTo_1cb_acb_apply {a c b : ℕ} (x : (⟨3, ![1, c, b]⟩ : Shape).Idx → α)
    (h : (⟨3, ![1, c, b]⟩ : Shape).Broadcasts ⟨3, ![a, c, b]⟩) (i : Fin a) (k : Fin c) (j : Fin b) :
    broadcastTo ⟨3, ![a, c, b]⟩ x h (ix3 i k j) = x (ix3 (0 : Fin 1) k j) := by
  refine broadcastTo_apply x h (ix3 i k j) (ix3 (0 : Fin 1) k j) fun ax => ?_
  match ax with
  | ⟨0, _⟩ => rfl
  | ⟨1, _⟩ =>
    show k.val = if c = 1 then 0 else k.val
    split
    · have := k.isLt; omega
    · rfl
  | ⟨2, _⟩ =>
    show j.val = if b = 1 then 0 else j.val
    split
    · have := j.isLt; omega
    · rfl

/-- A `[1, 1, b]` array broadcast to `[a, c, b]` reads, at `(i, k, j)`, the operand at `(0, 0, j)`. -/
theorem broadcastTo_11b_acb_apply {a c b : ℕ} (x : (⟨3, ![1, 1, b]⟩ : Shape).Idx → α)
    (h : (⟨3, ![1, 1, b]⟩ : Shape).Broadcasts ⟨3, ![a, c, b]⟩) (i : Fin a) (k : Fin c) (j : Fin b) :
    broadcastTo ⟨3, ![a, c, b]⟩ x h (ix3 i k j) = x (ix3 (0 : Fin 1) (0 : Fin 1) j) := by
  refine broadcastTo_apply x h (ix3 i k j) (ix3 (0 : Fin 1) (0 : Fin 1) j) fun ax => ?_
  match ax with
  | ⟨0, _⟩ => rfl
  | ⟨1, _⟩ => rfl
  | ⟨2, _⟩ =>
    show j.val = if b = 1 then 0 else j.val
    split
    · have := j.isLt; omega
    · rfl

end Cert.LibOuterLayout
-- ==== Proof.KernelPayload.lean ====
/-
  The body's one stored value, read at an index of the output block, at the ideal instance.

  From the four loaded blocks — `x0 : [1,128,512]` (all rows of the batch), `x1 : [1,32,512]` (the 32 rows of the
  tile), `x2 : [512,512]` (the transposed weights) and `x3 : [1,512]` (the bias row) — the body forms the two matrix
  products `x0 · x2` and `x1 · x2`, spreads the first along the middle axis and the second along the leading axis of
  `[128,32,512]`, adds them, and adds the bias row spread over both.  So at `(0, i, j, o)` the stored value is
  `Σ_h x0(0,i,h)·x2(h,o) + Σ_h x1(0,j,h)·x2(h,o) + x3(0,o)`.
-/
import proofs.«106311_j86199993631321_2_alg».proof.Proof.Gen.KernelIdeal.Skeleton
import proofs.«106311_j86199993631321_2_alg».proof.Proof.LibDot
import proofs.«106311_j86199993631321_2_alg».proof.Proof.LibOuterLayout
import Idealize.ShloMosaic.Lib.ValueLayout
import Idealize.ShloMosaic.PureOps.Ideal.Laws

noncomputable section

namespace Cert.KernelIdeal.HandValue

open Cert.KernelIdeal Cert.KernelIdeal.Gen
open Idealize.ShloMosaic Idealize.ShloMosaic.ValueIdx
open scoped BigOperators

/-- The product of the batch's rows with the transposed weights, at entry `(p, q)`. -/
theorem rows_matmul_apply (lhs : FVec Ideal S128x512 .bf16) (rhs : FVec Ideal S512x512 .bf16) (p : Fin 128) (q : Fin 512) :
    matmul dot_S128x512_S512x512_S128x512_1_0_0_1_n_n none lhs rhs (constant (F := Ideal) S128x512 .f32 0x00000000#32) (ix2 p q)
      = ∑ h : Fin 512, lhs (ix2 p h) * rhs (ix2 h q) :=
  Cert.LibDot.matmul_zero_apply dot_S128x512_S512x512_S128x512_1_0_0_1_n_n rfl rfl
    (fun j c => by
      unfold DotDims.lhsIdx
      rw [dif_neg (show ¬(0 : Fin S128x512.rank) ∈ dot_S128x512_S512x512_S128x512_1_0_0_1_n_n.lhsBatch by decide),
        dif_pos (show (0 : Fin S128x512.rank) ∈ dot_S128x512_S512x512_S128x512_1_0_0_1_n_n.lhsNonContracting by decide)]
      rfl)
    (fun j c => dot_S128x512_S512x512_S128x512_1_0_0_1_n_n.lhsIdx_val_of_single rfl j c)
    (fun j c => dot_S128x512_S512x512_S128x512_1_0_0_1_n_n.rhsIdx_val_of_single rfl j c)
    (fun j c => by
      unfold DotDims.rhsIdx
      rw [dif_neg (show ¬(1 : Fin S512x512.rank) ∈ dot_S128x512_S512x512_S128x512_1_0_0_1_n_n.rhsBatch by decide),
        dif_pos (show (1 : Fin S512x512.rank) ∈ dot_S128x512_S512x512_S128x512_1_0_0_1_n_n.rhsNonContracting by decide)]
      rfl)
    none lhs rhs p q

/-- The product of the tile's rows with the transposed weights, at entry `(p, q)`. -/
theorem tile_matmul_apply (lhs : FVec Ideal S32x512 .bf16) (rhs : FVec Ideal S512x512 .bf16) (p : Fin 32) (q : Fin 512) :
    matmul dot_S32x512_S512x512_S32x512_1_0_0_1_n_n none lhs rhs (constant (F := Ideal) S32x512 .f32 0x00000000#32) (ix2 p q)
      = ∑ h : Fin 512, lhs (ix2 p h) * rhs (ix2 h q) :=
  Cert.LibDot.matmul_zero_apply dot_S32x512_S512x512_S32x512_1_0_0_1_n_n rfl rfl
    (fun j c => by
      unfold DotDims.lhsIdx
      rw [dif_neg (show ¬(0 : Fin S32x512.rank) ∈ dot_S32x512_S512x512_S32x512_1_0_0_1_n_n.lhsBatch by decide),
        dif_pos (show (0 : Fin S32x512.rank) ∈ dot_S32x512_S512x512_S32x512_1_0_0_1_n_n.lhsNonContracting by decide)]
      rfl)
    (fun j c => dot_S32x512_S512x512_S32x512_1_0_0_1_n_n.lhsIdx_val_of_single rfl j c)
    (fun j c => dot_S32x512_S512x512_S32x512_1_0_0_1_n_n.rhsIdx_val_of_single rfl j c)
    (fun j c => by
      unfold DotDims.rhsIdx
      rw [dif_neg (show ¬(1 : Fin S512x512.rank) ∈ dot_S32x512_S512x512_S32x512_1_0_0_1_n_n.rhsBatch by decide),
        dif_pos (show (1 : Fin S512x512.rank) ∈ dot_S32x512_S512x512_S32x512_1_0_0_1_n_n.rhsNonContracting by decide)]
      rfl)
    none lhs rhs p q

/-- The stored value at `(0, i, j, o)`: the two projections and the bias. -/
theorem payload_apply (x0 : Vec Ideal S1x128x512 .bf16) (x1 : Vec Ideal S1x32x512 .bf16) (x2 : Vec Ideal S512x512 .bf16) (x3 : Vec Ideal S1x512 .f32)
    (i : Fin 128) (j : Fin 32) (o : Fin 512) :
    k0_pay1 (F := Ideal) x0 x1 x2 x3 (ix4 (0 : Fin 1) i j o)
      = (∑ h : Fin 512, x0 (ix3 (0 : Fin 1) i h) * x2 (ix2 h o)) + (∑ h : Fin 512, x1 (ix3 (0 : Fin 1) j h) * x2 (ix2 h o))
        + x3 (ix2 (0 : Fin 1) o) := by
  simp only [k0_pay1, shapeCast_abc_1abc_apply, addf_apply, Cert.LibOuterLayout.broadcastTo_a1b_acb_apply,
    Cert.LibOuterLayout.broadcastTo_1cb_acb_apply, Cert.LibOuterLayout.broadcastTo_11b_acb_apply,
    Cert.LibOuterLayout.shapeCast_ab_a1b_apply, shapeCast_ab_1ab_apply, rows_matmul_apply, tile_matmul_apply,
    shapeCast_1ab_ab_apply, shapeCast_self]

end Cert.KernelIdeal.HandValue

end
-- ==== Proof.Spec.lean ====
/-
  The result both programs compute, as one function of the three argument arrays, index by index over the
  extended reals.  With `x : [8,128,512]`, `W : [512,512]` and `bias : [512]`, write
  `proj (b,i,o) = ∑ h, x (b,i,h) * W (o,h)` for the linear map applied to row `i` of batch `b`.  The result at
  `(b,i,j,o)` is `proj (b,i,o) + proj (b,j,o) + bias o`: the linear layer applied to the sum of rows `i` and `j`,
  written with the sum over `h` already split over the two rows.
-/
import Idealize.ShloMosaic.PureOps.Ideal
import Idealize.ShloMosaic.Lib.ValueIdx

noncomputable section

open scoped BigOperators

namespace Cert.PairLinear

open Idealize.ShloMosaic Idealize.ShloMosaic.ValueIdx

/-- Row `i` of batch `b` through the linear map, at output feature `o`: `∑ h, x (b,i,h) * W (o,h)`. -/
def proj (x : (⟨3, ![8, 128, 512]⟩ : Shape).Idx → EReal) (W : (⟨2, ![512, 512]⟩ : Shape).Idx → EReal)
    (b : Fin 8) (i : Fin 128) (o : Fin 512) : EReal :=
  ∑ h : Fin 512, x (ix3 b i h) * W (ix2 o h)

/-- The pairwise linear layer: at `(b,i,j,o)` the projections of rows `i` and `j` of batch `b`, plus the bias. -/
def pairLinear (x : (⟨3, ![8, 128, 512]⟩ : Shape).Idx → EReal) (W : (⟨2, ![512, 512]⟩ : Shape).Idx → EReal)
    (bias : (⟨1, ![512]⟩ : Shape).Idx → EReal) : (⟨4, ![8, 128, 128, 512]⟩ : Shape).Idx → EReal :=
  fun j => proj x W (j 0) (j 1) (j 3) + proj x W (j 0) (j 2) (j 3) + bias (ix1 (j 3))

end Cert.PairLinear

end
-- ==== Proof.KernelValue.lean ====
/-
  What the kernel's result array holds after the run, as one function of the three argument arrays.

  Before the region the host converts the features (the identity on extended reals), transposes and converts the
  weights (so the region's weight array at `(h, o)` is `W (o, h)`), and reshapes the bias to a row.  At grid point
  `t = (b, jt)` the output block is `(b, all i, rows 32·jt .. 32·jt+31, all o)`; window 0's block is all rows of
  batch `b`, window 1's the 32 rows `32·jt ..` of batch `b`, windows 2 and 3 the whole weight and bias arrays.  So
  what point `t` writes back at `(0, i, j, o)` of its block is the pairwise linear layer of Spec.lean at
  `(b, i, 32·jt + j, o)`, which is that block of one whole-array function; the 32 blocks tile the result, so the
  result array ends holding that function.
-/
import proofs.«106311_j86199993631321_2_alg».proof.Proof.KernelIdealRun
import proofs.«106311_j86199993631321_2_alg».proof.Proof.KernelPayload
import proofs.«106311_j86199993631321_2_alg».proof.Proof.Spec
import Idealize.ShloMosaic.Lib.Pipeline.Value
import Idealize.ShloMosaic.Lib.StableHlo.Run

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)
open scoped BigOperators

variable (m : (ℓ : Loc nD τ sig) → Buf (Elt Ideal) ℓ) (ρ : Dev nD → PrngReg)

/-! ## The arrays the region finds, read at an index -/

/-- The converted features are the features. -/
theorem V_feats (c : Dev nD) (i : S8x128x512.Idx) :
    (V m c main_v2 : S8x128x512.Idx → EReal) i = (m ((c : Thread nD τ).loc main_arg0) : S8x128x512.Idx → EReal) i := by
  have e : V m c main_v2 = (truncf (F := Ideal) .bf16 (m ((c : Thread nD τ).loc main_arg0) : FVec Ideal S8x128x512 .f32) bitsLt_bf16_f32 : FVec Ideal S8x128x512 .bf16) := by
    rw [V_eq]; dsimp only [hostOps0]; after_results; first | done | rfl
  rw [e]; rfl

/-- The region's weight array at `(h, o)` is the weight matrix at `(o, h)`. -/
theorem V_weights (c : Dev nD) (h : Fin 512) (o : Fin 512) :
    (V m c main_v1 : S512x512.Idx → EReal) (ix2 h o) = (m ((c : Thread nD τ).loc main_arg1) : S512x512.Idx → EReal) (ix2 o h) := by
  have e : V m c main_v1
      = (truncf (F := Ideal) .bf16 (transpose S512x512 [1, 0] (m ((c : Thread nD τ).loc main_arg1) : FVec Ideal S512x512 .f32) transposes_S512x512_S512x512_1_0) bitsLt_bf16_f32 : FVec Ideal S512x512 .bf16) := by
    rw [V_eq]; dsimp only [hostOps0]; after_results; first | done | rfl
  rw [e, truncf_apply, transpose_ix2_apply]

/-- The region's bias row at `(0, o)` is the bias at `o`. -/
theorem V_bias (c : Dev nD) (o : Fin 512) :
    (V m c main_v3 : S1x512.Idx → EReal) (ix2 (0 : Fin 1) o) = (m ((c : Thread nD τ).loc main_arg2) : S512.Idx → EReal) (ix1 o) := by
  have e : (V m c main_v3 : S1x512.Idx → EReal)
      = shapeCast S1x512 (m ((c : Thread nD τ).loc main_arg2) : S512.Idx → EReal) shapeCasts_S512_S1x512 := by
    rw [V_eq]; dsimp only [hostOps0]; after_results; first | done | rfl
  rw [e, shapeCast_a_1a_apply]

/-! ## The blocks of a point -/

/-- The printed index maps over the grid: windows 0 and 1 sit in the output block's batch, window 1 at the output
    block's row tile, every other block index is zero, and the batch and the tile stay in range. -/
theorem idx_facts : ∀ t : Fin cfg0.N,
    win0_0.index t (0 : Fin 3) = win0_4.index t (0 : Fin 4) ∧ win0_0.index t (1 : Fin 3) = 0 ∧ win0_0.index t (2 : Fin 3) = 0
    ∧ win0_1.index t (0 : Fin 3) = win0_4.index t (0 : Fin 4) ∧ win0_1.index t (1 : Fin 3) = win0_4.index t (2 : Fin 4)
    ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (1 : Fin 4) = 0 ∧ win0_4.index t (3 : Fin 4) = 0
    ∧ win0_4.index t (0 : Fin 4) ≤ 7 ∧ win0_4.index t (2 : Fin 4) ≤ 3 :=
  (by decide +kernel : ∀ t : Fin grid0.N, _)

/-- Every (batch, row tile) pair is some point's output block. -/
theorem idx_onto : ∀ (q0 : Fin 8) (q2 : Fin 4), ∃ t : Fin cfg0.N, win0_4.index t = ![q0.val, 0, q2.val, 0] :=
  (by decide +kernel : ∀ (q0 : Fin 8) (q2 : Fin 4), ∃ t : Fin grid0.N, win0_4.index t = ![q0.val, 0, q2.val, 0])

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The result array the kernel is shown to leave: the pairwise linear layer of the argument arrays. -/
def result (c : Dev nD) : S8x128x128x512.Idx → EReal :=
  Cert.PairLinear.pairLinear (m ((c : Thread nD τ).loc main_arg0)) (m ((c : Thread nD τ).loc main_arg1)) (m ((c : Thread nD τ).loc main_arg2))

/-- Window 0's block at `t`, at `(0, i, h)`: row `i` of the output block's batch. -/
theorem blk0_apply (c : Dev nD) (t : Fin cfg0.N) (b : Fin 8) (hb : b.val = win0_4.index t (0 : Fin 4)) (i : Fin 128) (h : Fin 512) :
    iblk m c 0 t (ix3 (0 : Fin 1) i h) = (m ((c : Thread nD τ).loc main_arg0) : S8x128x512.Idx → EReal) (ix3 b i h) := by
  obtain ⟨e0, e1, e2, -⟩ := idx_facts t
  refine Eq.trans ?_ (V_feats m c (ix3 b i h))
  show V m c main_v2 (((cfg0.win 0).blk t).view.emb (ix3 (0 : Fin 1) i h)) = V m c main_v2 (ix3 b i h)
  refine congrArg _ (funext fun a => Fin.ext ?_)
  match a with
  | ⟨0, _⟩ => show win0_0.index t (0 : Fin 3) * 1 + 1 * 0 = b.val; omega
  | ⟨1, _⟩ => show win0_0.index t (1 : Fin 3) * 128 + 1 * i.val = i.val; omega
  | ⟨2, _⟩ => show win0_0.index t (2 : Fin 3) * 512 + 1 * h.val = h.val; omega

/-- Window 1's block at `t`, at `(0, j, h)`: row `j` of the output block's row tile, in its batch. -/
theorem blk1_apply (c : Dev nD) (t : Fin cfg0.N) (b : Fin 8) (hb : b.val = win0_4.index t (0 : Fin 4)) (j : Fin 32) (r : Fin 128)
    (hr : r.val = win0_4.index t (2 : Fin 4) * 32 + j.val) (h : Fin 512) :
    iblk m c 1 t (ix3 (0 : Fin 1) j h) = (m ((c : Thread nD τ).loc main_arg0) : S8x128x512.Idx → EReal) (ix3 b r h) := by
  obtain ⟨-, -, -, e0, e1, e2, -⟩ := idx_facts t
  refine Eq.trans ?_ (V_feats m c (ix3 b r h))
  show V m c main_v2 (((cfg0.win 1).blk t).view.emb (ix3 (0 : Fin 1) j h)) = V m c main_v2 (ix3 b r h)
  refine congrArg _ (funext fun a => Fin.ext ?_)
  match a with
  | ⟨0, _⟩ => show win0_1.index t (0 : Fin 3) * 1 + 1 * 0 = b.val; omega
  | ⟨1, _⟩ => show win0_1.index t (1 : Fin 3) * 32 + 1 * j.val = r.val; omega
  | ⟨2, _⟩ => show win0_1.index t (2 : Fin 3) * 512 + 1 * h.val = h.val; omega

/-- Window 2's block at any point, at `(h, o)`: the weight matrix at `(o, h)`. -/
theorem blk2_apply (c : Dev nD) (t : Fin cfg0.N) (h : Fin 512) (o : Fin 512) :
    iblk m c 2 t (ix2 h o) = (m ((c : Thread nD τ).loc main_arg1) : S512x512.Idx → EReal) (ix2 o h) := by
  obtain ⟨-, -, -, -, -, -, e0, e1, -⟩ := idx_facts t
  refine Eq.trans ?_ (V_weights m c h o)
  show V m c main_v1 (((cfg0.win 2).blk t).view.emb (ix2 h o)) = V m c main_v1 (ix2 h o)
  refine congrArg _ (funext fun a => Fin.ext ?_)
  match a with
  | ⟨0, _⟩ => show win0_2.index t (0 : Fin 2) * 512 + 1 * h.val = h.val; omega
  | ⟨1, _⟩ => show win0_2.index t (1 : Fin 2) * 512 + 1 * o.val = o.val; omega

/-- Window 3's block at any point, at `(0, o)`: the bias at `o`. -/
theorem blk3_apply (c : Dev nD) (t : Fin cfg0.N) (o : Fin 512) :
    iblk m c 3 t (ix2 (0 : Fin 1) o) = (m ((c : Thread nD τ).loc main_arg2) : S512.Idx → EReal) (ix1 o) := by
  obtain ⟨-, -, -, -, -, -, -, -, e0, e1, -⟩ := idx_facts t
  refine Eq.trans ?_ (V_bias m c o)
  show V m c main_v3 (((cfg0.win 3).blk t).view.emb (ix2 (0 : Fin 1) o)) = V m c main_v3 (ix2 (0 : Fin 1) o)
  refine congrArg _ (funext fun a => Fin.ext ?_)
  match a with
  | ⟨0, _⟩ => show win0_3.index t (0 : Fin 2) * 1 + 1 * 0 = 0; omega
  | ⟨1, _⟩ => show win0_3.index t (1 : Fin 2) * 512 + 1 * o.val = o.val; omega

/-! ## What a point writes back -/

/-- What point `t` writes back is block `t` of `result`. -/
theorem flushed_eq (c : Dev nD) (t : Fin cfg0.N) :
    (dats m 0 c).flushed 4 t = ((cfg0.win 4).blk t).view.read (Elt Ideal) (result m c) := by
  show (cfg0.win 4).cut (grid0.coords t) ((dats m 0 c).after 4 t) = _
  rw [after_4]
  unfold outBlock
  rw [View.canon_unit_zero hz4]
  simp only [View.ld_unit_zero (S := S1x128x512) hz3, View.ld_unit_zero (S := S1x32x512) hz3, View.ld_unit_zero (S := S512x512) hz2,
    View.ld_unit_zero (S := S1x512) hz2]
  obtain ⟨-, -, -, -, -, -, -, -, -, -, e1, e3, l0, l2⟩ := idx_facts t
  funext y
  obtain ⟨u, i, j, o, rfl⟩ : ∃ (u : Fin 1) (i : Fin 128) (j : Fin 32) (o : Fin 512), y = ix4 u i j o := ⟨y 0, y 1, y 2, y 3, eq_ix4 y⟩
  obtain rfl : u = 0 := Subsingleton.elim _ _
  refine (payload_apply (iblk m c 0 t) (iblk m c 1 t) (iblk m c 2 t) (iblk m c 3 t) i j o).trans ?_
  have hjlt : j.val < 32 := j.isLt
  let b : Fin 8 := ⟨win0_4.index t (0 : Fin 4), by omega⟩
  let r : Fin 128 := ⟨win0_4.index t (2 : Fin 4) * 32 + j.val, by omega⟩
  have hemb : ((cfg0.win 4).blk t).view.emb (ix4 (0 : Fin 1) i j o) = ix4 b i r o := funext fun a => Fin.ext (by
    match a with
    | ⟨0, _⟩ => show win0_4.index t (0 : Fin 4) * 1 + 1 * 0 = win0_4.index t (0 : Fin 4); omega
    | ⟨1, _⟩ => show win0_4.index t (1 : Fin 4) * 128 + 1 * i.val = i.val; omega
    | ⟨2, _⟩ => show win0_4.index t (2 : Fin 4) * 32 + 1 * j.val = win0_4.index t (2 : Fin 4) * 32 + j.val; omega
    | ⟨3, _⟩ => show win0_4.index t (3 : Fin 4) * 512 + 1 * o.val = o.val; omega)
  rw [View.read_apply, hemb]
  show _ = Cert.PairLinear.proj _ _ b i o + Cert.PairLinear.proj _ _ b r o + _
  unfold Cert.PairLinear.proj
  rw [blk3_apply m c t o]
  congr 1
  congr 1
  · exact Finset.sum_congr rfl fun h _ => by rw [blk0_apply m c t b rfl i h, blk2_apply m c t h o]
  · exact Finset.sum_congr rfl fun h _ => by rw [blk1_apply m c t b rfl j r rfl h, blk2_apply m c t h o]

/-! ## The blocks tile the result -/

/-- An index of the result is in point `t`'s block iff each coordinate is in the block's range on its axis. -/
theorem mem_blk (t : Fin cfg0.N) (i : S8x128x128x512.Idx) :
    i ∈ ((cfg0.win 4).blk t).view.set ↔ ∀ a : Fin 4, win0_4.index t a * S1x128x32x512.size a ≤ (i a).val
      ∧ (i a).val < win0_4.index t a * S1x128x32x512.size a + S1x128x32x512.size a := by
  show i ∈ ((View.whole main_v4).slice (win0_4.rect t)).set ↔ _
  rw [View.set_slice_whole, Rect.mem_set_unit]
  exact Iff.rfl

/-- Every index `(b, i, r, o)` of the result is in the block of the point `(b, r / 32)`. -/
theorem cover (i : S8x128x128x512.Idx) : ∃ t : Fin cfg0.N, (cfg0.win 4).flush t = true ∧ i ∈ ((cfg0.win 4).blk t).view.set := by
  have hi0 : (i 0).val < 8 := (i 0).isLt
  have hi1 : (i 1).val < 128 := (i 1).isLt
  have hi2 : (i 2).val < 128 := (i 2).isLt
  have hi3 : (i 3).val < 512 := (i 3).isLt
  obtain ⟨t, ht⟩ := idx_onto ⟨(i 0).val, hi0⟩ ⟨(i 2).val / 32, by omega⟩
  have q0 : win0_4.index t (0 : Fin 4) = (i 0).val := congrFun ht 0
  have q1 : win0_4.index t (1 : Fin 4) = 0 := congrFun ht 1
  have q2 : win0_4.index t (2 : Fin 4) = (i 2).val / 32 := congrFun ht 2
  have q3 : win0_4.index t (3 : Fin 4) = 0 := congrFun ht 3
  refine ⟨t, flush0_4 t, ?_⟩
  rw [mem_blk]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 128 ≤ (i 1).val ∧ (i 1).val < win0_4.index t (1 : Fin 4) * 128 + 128; omega
  | ⟨2, _⟩ => show win0_4.index t (2 : Fin 4) * 32 ≤ (i 2).val ∧ (i 2).val < win0_4.index t (2 : Fin 4) * 32 + 32; omega
  | ⟨3, _⟩ => show win0_4.index t (3 : Fin 4) * 512 ≤ (i 3).val ∧ (i 3).val < win0_4.index t (3 : Fin 4) * 512 + 512; omega

/-- The result array after the 32 write-backs is `result`. -/
theorem final (c : Dev nD) : (dats m 0 c).arrAt 4 cfg0.N = result m c :=
  (dats m 0 c).arrAt_eq_of_cover 4 (result m c) (fun t _ => flushed_eq m c t) cover

/-! ## The run, read -/

/-- Every weakly fair execution of the idealized kernel terminates with the result array at the pairwise linear layer
    of the argument arrays, and the argument arrays unchanged. -/
theorem run : θ_run defs (onTc (τ := τ) (main (F := Ideal))) ⟨m, fun _ => 0, ρ⟩ fun r => ∀ c : Dev nD,
      r.2.mem ((c.tc : Thread nD τ).loc main_v4) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨((h c).1 4).trans (final m c),
     ((h c).2 main_arg0 (Pipeline.mem_restRefs_of _ rfl (by decide))).trans (V_main_arg0 m c),
     ((h c).2 main_arg1 (Pipeline.mem_restRefs_of _ rfl (by decide))).trans (V_main_arg1 m c),
     ((h c).2 main_arg2 (Pipeline.mem_restRefs_of _ rfl (by decide))).trans (V_main_arg2 m c)⟩) (run_main m ρ)

end Cert.KernelIdeal.HandValue

end
-- ==== Proof.Finite.lean ====
/-
  Finite inputs are real.  The precondition says of each of the three argument arrays that every entry `v` satisfies
  `|v| < +∞`, all of these joined by `and`.  On the extended reals `|v| = max v (-v)`, and `max v (-v) < ⊤` excludes
  exactly `v = ⊤` and `v = ⊥`; so every entry is (the image of) a real number.  This is what the algebraic law between
  the two programs needs: distributivity fails at the infinities.
-/
import proofs.«106311_j86199993631321_2_alg».proof.Pre_finite_inputs
import Idealize.ShloMosaic.Lib.ReduceAll
import Idealize.ShloMosaic.Lib.ValueIdx
import Idealize.ShloMosaic.PureOps.Ideal

namespace Cert.PairLinear

open Idealize.ShloMosaic Idealize.ShloMosaic.ValueIdx

/-- One entry: if `|v| < +∞` holds as a comparison on the extended reals (the word `0x7F800000` denotes `⊤`), then `v` is
    a real number.  At `v = ⊥` and at `v = ⊤` the absolute value `max v (-v)` is `⊤`, which is not below `⊤`. -/
theorem real_of_abs_lt_inf (v : EReal)
    (h : Ideal.cmp .olt (max v (-v)) (Ideal.ofBits .f32 0x7F800000#32) = 1#1) : ∃ r : ℝ, v = (r : EReal) := by
  have htop : Ideal.ofBits .f32 0x7F800000#32 = ⊤ := by simp [Ideal.ofBits, Ideal.ieee]
  rw [htop] at h
  unfold Ideal.cmp at h
  induction v using EReal.rec with
  | bot => simp at h
  | coe r => exact ⟨r, rfl⟩
  | top => simp at h

/-- The scalar shape has one index. -/
instance subsingleton_scalarIdx : Subsingleton Cert.Pre_finite_inputs.S_.Idx := ⟨fun _ _ => funext fun d => d.elim0⟩

open Cert.Pre_finite_inputs in
/-- The precondition `finite_inputs`, read back: it is the conjunction of three "all entries satisfy `|v| < +∞`"
    reductions, so under it every entry of each of the three arrays is a real number. -/
theorem real_of_pre [Cert.Pre_finite_inputs.Facts] (x : FVec Ideal S8x128x512 .f32) (W : FVec Ideal S512x512 .f32)
    (bias : FVec Ideal S512 .f32)
    (h : Cert.Pre_finite_inputs.fn (F := Ideal) x W bias = (fun _ => 1#1)) :
    (∀ i, ∃ r : ℝ, x i = (r : EReal)) ∧ (∀ i, ∃ r : ℝ, W i = (r : EReal)) ∧ (∀ i, ∃ r : ℝ, bias i = (r : EReal)) := by
  have h0 := congrFun h ix0
  dsimp only [Cert.Pre_finite_inputs.fn] at h0
  obtain ⟨hxW, hb⟩ := IntOp.andi_eq_one.1 h0
  obtain ⟨hx, hW⟩ := IntOp.andi_eq_one.1 hxW
  exact ⟨fun i => real_of_abs_lt_inf _ (Host.reduce_andi_all _ _ _ _ _ hx i),
    fun i => real_of_abs_lt_inf _ (Host.reduce_andi_all _ _ _ _ _ hW i),
    fun i => real_of_abs_lt_inf _ (Host.reduce_andi_all _ _ _ _ _ hb i)⟩

end Cert.PairLinear
-- ==== Proof.SumLaw.lean ====
/-
  Distributing a product over a sum, inside a finite sum, on the extended reals.

  On the extended reals `(a + b) * w = a * w + b * w` fails at the infinities (for instance `a = ⊤`, `b = ⊥`), and so
  does splitting a sum of such terms.  When every entry is a real number it holds, because the embedding of the reals
  into the extended reals commutes with sums and products; that is the form stated here.
-/
import Idealize.ShloMosaic.PureOps.Ideal

open scoped BigOperators

namespace Cert.PairLinear

/-- The embedding of the reals in the extended reals commutes with finite sums. -/
theorem coe_finset_sum {ι : Type*} (s : Finset ι) (f : ι → ℝ) :
    ((∑ h ∈ s, f h : ℝ) : EReal) = ∑ h ∈ s, (f h : EReal) := by
  classical
  induction s using Finset.induction_on with
  | empty => simp
  | insert a s ha ih => rw [Finset.sum_insert ha, Finset.sum_insert ha, EReal.coe_add, ih]

/-- For real-valued `a`, `b`, `w`: `∑ h, (a h + b h) * w h = ∑ h, b h * w h + ∑ h, a h * w h`. -/
theorem sum_add_mul_of_real {ι : Type*} (s : Finset ι) (a b w : ι → EReal)
    (ha : ∀ h, ∃ r : ℝ, a h = (r : EReal)) (hb : ∀ h, ∃ r : ℝ, b h = (r : EReal))
    (hw : ∀ h, ∃ r : ℝ, w h = (r : EReal)) :
    ∑ h ∈ s, (a h + b h) * w h = ∑ h ∈ s, b h * w h + ∑ h ∈ s, a h * w h := by
  choose ra hra using ha
  choose rb hrb using hb
  choose rw hrw using hw
  simp only [hra, hrb, hrw, ← EReal.coe_add, ← EReal.coe_mul, ← coe_finset_sum]
  congr 1
  rw [← Finset.sum_add_distrib]
  exact Finset.sum_congr rfl fun h _ => by ring

end Cert.PairLinear
-- ==== Proof.RefValue.lean ====
/-
  The reference's result, read index by index, is the pairwise linear layer of Spec.lean.

  The reference first forms `pair (b,i,j,h) = x (b,j,h) + x (b,i,h)` (two broadcasts of `x`, one along a new axis 1 and
  one along a new axis 2, and their sum), contracts `pair`'s last axis with `W`'s last axis, and adds the bias
  broadcast over the leading axes:
      `ref (b,i,j,o) = (∑ h, (x (b,j,h) + x (b,i,h)) * W (o,h)) + bias o`.
  The specification has the sum over `h` already split over the two rows,
      `proj (b,i,o) + proj (b,j,o) + bias o`  with  `proj (b,i,o) = ∑ h, x (b,i,h) * W (o,h)`.
  The two agree by distributivity inside the sum and by splitting the sum, which on the extended reals needs the
  entries of `x` and `W` to be real numbers (SumLaw.lean); the bias needs no such hypothesis, since it is only added
  on both sides.
-/
import proofs.«106311_j86199993631321_2_alg».proof.Proof.Spec
import proofs.«106311_j86199993631321_2_alg».proof.Proof.SumLaw
import proofs.«106311_j86199993631321_2_alg».proof.Proof.Gen.ReferenceIdeal.Read

noncomputable section

open scoped BigOperators

namespace Cert.PairLinear.Ref

open Idealize.ShloMosaic Idealize.ShloMosaic.ValueIdx Cert.ReferenceIdeal Cert.ReferenceIdeal.Gen Cert.ReferenceIdeal.Read

/-! ## Which entries of the arguments a result entry reads

At the result index `(b,i,k,o)` and contraction index `h`: the first summand of `pair` is `x` broadcast along a new
axis 1, so it reads `x (b,k,h)`; the second is `x` broadcast along a new axis 2 and reads `x (b,i,h)`; the weight read
is `W (o,h)`; and the bias, broadcast over the three leading axes, is read at `o`. -/

theorem idx_left (b : Fin 8) (i k : Fin 128) (o h : Fin 512) :
    idx_main_v0 (idx_main_v2 (lidx_main_v5 (ix4 b i k o) h)) = ix3 b k h :=
  funext fun a => Fin.ext (by match a with | ⟨0, _⟩ => rfl | ⟨1, _⟩ => rfl | ⟨2, _⟩ => rfl)

theorem idx_right (b : Fin 8) (i k : Fin 128) (o h : Fin 512) :
    idx_main_v1 (idx_main_v3 (lidx_main_v5 (ix4 b i k o) h)) = ix3 b i h :=
  funext fun a => Fin.ext (by match a with | ⟨0, _⟩ => rfl | ⟨1, _⟩ => rfl | ⟨2, _⟩ => rfl)

theorem idx_weight (b : Fin 8) (i k : Fin 128) (o h : Fin 512) :
    ridx_main_v5 (ix4 b i k o) h = ix2 o h :=
  funext fun a => Fin.ext (by match a with | ⟨0, _⟩ => rfl | ⟨1, _⟩ => rfl)

theorem idx_bias (b : Fin 8) (i k : Fin 128) (o : Fin 512) :
    idx_main_v6 (idx_main_v7 (ix4 b i k o)) = ix1 o :=
  funext fun a => Fin.ext (by match a with | ⟨0, _⟩ => rfl)

/-! ## The reference is the pairwise linear layer -/

/-- The reference's last stage, as a function of the three argument arrays, is `pairLinear`, provided the entries
    of `x` and `W` are real: at `(b,i,k,o)` it is `∑ h, (x (b,k,h) + x (b,i,h)) * W (o,h) + bias o`, and for real
    entries the sum splits as `∑ h, x (b,i,h) * W (o,h) + ∑ h, x (b,k,h) * W (o,h)`. -/
theorem ref_eq (x : (⟨S8x128x512, .f32⟩ : BufTy).Contents (Elt Ideal)) (W : (⟨S512x512, .f32⟩ : BufTy).Contents (Elt Ideal))
    (bias : (⟨S512, .f32⟩ : BufTy).Contents (Elt Ideal))
    (hx : ∀ i, ∃ r : ℝ, x i = (r : EReal)) (hW : ∀ i, ∃ r : ℝ, W i = (r : EReal)) :
    val_main_v8 (F := Ideal) x W bias = Cert.PairLinear.pairLinear x W bias := by
  funext j
  obtain ⟨b, i, k, o, rfl⟩ : ∃ (b : Fin 8) (i : Fin 128) (k : Fin 128) (o : Fin 512), j = ix4 b i k o :=
    ⟨j 0, j 1, j 2, j 3, eq_ix4 j⟩
  rw [val_main_v8_apply, val_main_v5_apply, val_main_v7_apply, val_main_v6_apply]
  simp only [val_main_v4_apply, val_main_v2_apply, val_main_v3_apply, val_main_v0_apply, val_main_v1_apply,
    idx_left, idx_right, idx_weight, idx_bias, Ideal.addf_def]
  show _ = (∑ h : Fin 512, x (ix3 b i h) * W (ix2 o h)) + (∑ h : Fin 512, x (ix3 b k h) * W (ix2 o h)) + bias (ix1 o)
  refine congrArg (fun t => t + bias (ix1 o)) ?_
  exact sum_add_mul_of_real Finset.univ (fun h => x (ix3 b k h)) (fun h => x (ix3 b i h)) (fun h => W (ix2 o h))
    (fun _ => hx _) (fun _ => hx _) (fun _ => hW _)

/-- The same, stated on the composed term of the nine operations rather than on its last stage. -/
theorem ref_term_eq (x : FVec Ideal S8x128x512 .f32) (W : FVec Ideal S512x512 .f32) (bias : FVec Ideal S512 .f32)
    (hx : ∀ i, ∃ r : ℝ, x i = (r : EReal)) (hW : ∀ i, ∃ r : ℝ, W i = (r : EReal)) :
    addf (F := Ideal) (Host.dotGeneral dot_S8x128x128x512_S512x512_S8x128x128x512_3_1_012_0_n_n none (addf (broadcastInDim S8x128x128x512 ![0, 1, 2, 3] bcast_S8x1x128x512_S8x128x128x512_0_1_2_3 (broadcastInDim S8x1x128x512 ![0, 2, 3] bcast_S8x128x512_S8x1x128x512_0_2_3 x)) (broadcastInDim S8x128x128x512 ![0, 1, 2, 3] bcast_S8x128x1x512_S8x128x128x512_0_1_2_3 (broadcastInDim S8x128x1x512 ![0, 1, 3] bcast_S8x128x512_S8x128x1x512_0_1_3 x))) W) (broadcastInDim S8x128x128x512 ![0, 1, 2, 3] bcast_S1x1x1x512_S8x128x128x512_0_1_2_3 (broadcastInDim S1x1x1x512 ![3] bcast_S512_S1x1x1x512_3 bias))
      = Cert.PairLinear.pairLinear x W bias :=
  (val_main_v8_eq (F := Ideal) x W bias).trans (ref_eq x W bias hx hW)

end Cert.PairLinear.Ref

end
-- ==== Proof.lean ====
/-
  The certificate of the pairwise linear layer.

  The kernel computes `out[b,i,j,:] = Linear(x[b,i,:] + x[b,j,:])` as `proj[b,i,:] + proj[b,j,:] + bias` with
  `proj = x · Wᵀ`, block by block over a grid of 8 × 4 points, reading the converted features through two windows
  of one array.  The reference forms the pair tensor `x[b,j,:] + x[b,i,:]` and contracts it with `W`.

  * The three frames: the kernel's two readings run by the shared-array frame run (the array both feature windows
    read is dealt between them by halves); the reference's is its run with the result dropped.
  * `preserves`: the ideal pass rewrote nothing, so the conjunct is `True`.
  * `algebraic`: the kernel's result array ends at the pairwise linear layer of the argument arrays (the 32 written
    blocks tile it; each is the payload of its point's input blocks).  The reference's result is the same function
    because the entries of `x` and `W` are real under the precondition: then `(a + b)·w = a·w + b·w` and the sum
    over `h` splits.  Over all extended reals that law fails at the infinities, which is why finiteness is used.
-/
import proofs.«106311_j86199993631321_2_alg».proof.Defs
import proofs.«106311_j86199993631321_2_alg».proof.Proof.Gen.Kernel
import proofs.«106311_j86199993631321_2_alg».proof.Proof.Gen.KernelIdeal
import proofs.«106311_j86199993631321_2_alg».proof.Proof.Gen.ReferenceIdeal
import proofs.«106311_j86199993631321_2_alg».proof.Proof.Gen.Pre_finite_inputs
import proofs.«106311_j86199993631321_2_alg».proof.Proof.KernelRun
import proofs.«106311_j86199993631321_2_alg».proof.Proof.KernelIdealRun
import proofs.«106311_j86199993631321_2_alg».proof.Proof.KernelValue
import proofs.«106311_j86199993631321_2_alg».proof.Proof.Finite
import proofs.«106311_j86199993631321_2_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Hand.frame (F := Bits) m ρ

theorem frame_kernelIdeal : Cert.frame_KernelIdeal := fun m ρ _ => Cert.KernelIdeal.Hand.frame (F := Ideal) m ρ

theorem frame_reference : Cert.frame_ReferenceIdeal := fun m ρ _ =>
  (θ_run Cert.ReferenceIdeal.defs _ _).mono (fun _ h c => (h c).2) (Cert.ReferenceIdeal.Value.run (F := Ideal) m ρ)

/-- Both idealized programs end with the pairwise linear layer of the (agreeing) argument arrays. -/
theorem algebraic : Cert.algebraic_KernelIdeal_ReferenceIdeal := by
  intro m ρ m' ρ' hpre hagree
  refine ⟨fun c => Cert.KernelIdeal.HandValue.result m c, Cert.KernelIdeal.HandValue.run m ρ, ?_⟩
  refine (θ_run Cert.ReferenceIdeal.defs _ _).mono (fun _ h c => ?_) (Cert.ReferenceIdeal.Value.run (F := Ideal) m' ρ')
  obtain ⟨hx, hW, -⟩ := Cert.PairLinear.real_of_pre _ _ _ (hpre c)
  refine ⟨?_, (h c).2⟩
  rw [(h c).1, Cert.ReferenceIdeal.Read.val_main_v8_eq, (hagree c).1, (hagree c).2.1, (hagree c).2.2,
    Cert.PairLinear.Ref.ref_eq _ _ _ hx hW]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
